-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S10000x1 : Shape := ⟨2, ![10000, 1]⟩

abbrev nBuf : Space → Nat
  | .hbm => 82
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x1, .f32⟩
  | .local _ .vmem, ⟨7, _⟩ => ⟨S10000x1, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .f32⟩
  | .local _ .vmem, ⟨13, _⟩ => ⟨S10000x1, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S10000x64_S10000x64 : S10000x64.ShapeCasts S10000x64
  bcast_S_S100000x64 : S_.BroadcastsInDim S100000x64 (![] : Fin 0 → Fin S100000x64.rank)
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S1700000x1.size a
  hwx1_0 : ∀ i : grid1.Coords, EltTy.bits .f32 = 32 ∨ (Rect.block (s := S1700000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1700000x64.size a
  hwx1_1 : ∀ i : grid1.Coords, EltTy.bits .f32 = 32 ∨ (Rect.block (s := S1700000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S1700000x1.size a
  hwx2_0 : ∀ i : grid2.Coords, EltTy.bits .f32 = 32 ∨ (Rect.block (s := S1700000x1) S10000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1700000x64.size a
  hwx2_1 : ∀ i : grid2.Coords, EltTy.bits .f32 = 32 ∨ (Rect.block (s := S1700000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1700000x64.size a
  hwx2_2 : ∀ i : grid2.Coords, EltTy.bits .f32 = 32 ∨ (Rect.block (s := S1700000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S1700000x1, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its RESULT named.

  The program is four kernel launches among stretches of host operations. Its generated frame proof walks the buffer
  contents through every boundary between a stretch and a launch (`Gen.W0` … `Gen.W10`) and, at the end, reads the final
  memory against the last boundary's contents `Gen.W10` — but states only that the six argument arrays end as launched.
  The same launch argument, read at one more buffer, also gives the result array: after every weakly fair execution the
  result buffer holds `Gen.W10` at that buffer. What `Gen.W10` holds there as a function of the arguments is a separate
  matter (the value chain).
-/
import proofs.«142817_j88811333746742_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the six argument arrays as launched. -/
theorem run_result : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Result

end
-- ==== Proof.Spec.lean ====
/-
  The three array functions the four kernel launches compute, over the extended reals, entry by entry.

  * a dense layer: row p of x against column f of w, plus the bias row's entry f,
        dense x w b (p, f) = (Σ_k x[p, k] · w[k, f]) + b[0, f];
  * the same followed by max(·, 0);
  * a row scaling: every entry of row p of h multiplied by the one entry of row p of a column,
        scaleRows s h (p, f) = s[p, 0] · h[p, f].

  Nothing here needs the entries to be finite: each side of the certificate applies these same operations in the same
  order, so no law of the extended reals beyond reading an operation at an index is used.
-/
import Idealize.ShloMosaic.PureOps.Ideal
import Idealize.ShloMosaic.Lib.ValueIdx

noncomputable section

open scoped BigOperators

namespace Cert.Spec

open Idealize.ShloMosaic Idealize.ShloMosaic.ValueIdx

variable {M K N : ℕ}

/-- x @ w + b, the bias a [1, N] row added to every row of the product. -/
def dense (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * w (ix2 k (i 1))) + b (ix2 ⟨0, Nat.one_pos⟩ (i 1))

/-- max(x @ w + b, 0), the zero spelt as the f32 zero word read at the extended reals. -/
def denseRelu (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (dense x w b i) (Ideal.ofBits .f32 0x00000000#32)

/-- Row p of h scaled by the entry of row p of the [M, 1] column s. -/
def scaleRows (s : (⟨2, ![M, 1]⟩ : Shape).Idx → EReal) (h : (⟨2, ![M, N]⟩ : Shape).Idx → EReal) :
    (⟨2, ![M, N]⟩ : Shape).Idx → EReal :=
  fun i => s (ix2 (i 0) ⟨0, Nat.one_pos⟩) * h i

theorem dense_apply (x : (⟨2, ![M, K]⟩ : Shape).Idx → EReal) (w : (⟨2, ![K, N]⟩ : Shape).Idx → EReal)
    (b : (⟨2, ![1, N]⟩ : Shape).Idx → EReal) (p : Fin M) (f : Fin N) :
    dense x w b (ix2 p f) = (∑ k : Fin K, x (ix2 p k) * w (ix2 k f)) + b (ix2 ⟨0, Nat.one_pos⟩ f) := rfl

theorem denseRelu_apply (x : (⟨2, ![M, K]⟩ : Shape).Idx → EReal) (w : (⟨2, ![K, N]⟩ : Shape).Idx → EReal)
    (b : (⟨2, ![1, N]⟩ : Shape).Idx → EReal) (p : Fin M) (f : Fin N) :
    denseRelu x w b (ix2 p f)
      = max ((∑ k : Fin K, x (ix2 p k) * w (ix2 k f)) + b (ix2 ⟨0, Nat.one_pos⟩ f)) (Ideal.ofBits .f32 0x00000000#32) := rfl

theorem scaleRows_apply (s : (⟨2, ![M, 1]⟩ : Shape).Idx → EReal) (h : (⟨2, ![M, N]⟩ : Shape).Idx → EReal) (p : Fin M) (f : Fin N) :
    scaleRows s h (ix2 p f) = s (ix2 p ⟨0, Nat.one_pos⟩) * h (ix2 p f) := rfl

end Cert.Spec

end
-- ==== Proof.RefBridge.lean ====
/-
  The reference's three dense steps are the same array functions the kernel launches compute.

  * its first layer, relu(x @ W1 + b1) with the bias broadcast [64] → [1, 64] → [100000, 64], is `denseRelu x W1 (b1 as a [1, 64] row)`;
  * its message scaling, norm[:, None] · h[src] with the weights broadcast [E] → [E, 1] → [E, 64], is `scaleRows (norm as an [E, 1] column) h[src]`;
  * its last layer, h @ W2 + b2, is `dense h W2 (b2 as a [1, 64] row)`.

  On the kernel's side the row and the column come from a reshape rather than a broadcast; read at an entry a reshape
  [64] → [1, 64] or [E] → [E, 1] is the same entry of the vector, which is all that is used. Each equation is entry by entry:
  the reference's operations read at an index (the host's matrix product as a sum over k), the index maps identified with
  the coordinates.
-/
import proofs.«142817_j88811333746742_2_alg».proof.Proof.RefRead
import proofs.«142817_j88811333746742_2_alg».proof.Proof.Spec
import Idealize.ShloMosaic.Lib.Pipeline.Value

noncomputable section

open scoped BigOperators

namespace Cert.ReferenceIdeal.Bridge

open Cert.ReferenceIdeal Cert.ReferenceIdeal.Gen Cert.ReferenceIdeal.ReadP Cert.Spec Idealize.ShloMosaic Idealize.ShloMosaic.ValueIdx

/-- A vector of 64 reshaped to a [1, 64] row reads, at (0, f), the vector's entry f. -/
theorem row_cast (x : S64.Idx → EReal) (h : S64.ShapeCasts S1x64) (f : Fin 64) :
    shapeCast S1x64 x h (ix2 ⟨0, Nat.one_pos⟩ f) = x (ix1 f) :=
  shapeCast_apply x h _ _ (by rw [Shape.rowMajor_val_one, Shape.rowMajor_val_two]; show f.val = 0 * 64 + f.val; omega)

/-- A vector of 1700000 reshaped to a [1700000, 1] column reads, at (e, 0), the vector's entry e. -/
theorem col_cast (n : S1700000.Idx → EReal) (h : S1700000.ShapeCasts S1700000x1) (e : Fin 1700000) :
    shapeCast S1700000x1 n h (ix2 e ⟨0, Nat.one_pos⟩) = n (ix1 e) :=
  shapeCast_apply n h _ _ (by rw [Shape.rowMajor_val_one, Shape.rowMajor_val_two]; show e.val = e.val * 1 + 0; omega)

/-- The reference's first layer is `denseRelu`. -/
theorem layer1 (x0 : (⟨S100000x128, .f32⟩ : BufTy).Contents (Elt Ideal)) (x2 : (⟨S128x64, .f32⟩ : BufTy).Contents (Elt Ideal))
    (x3 : (⟨S64, .f32⟩ : BufTy).Contents (Elt Ideal)) (h : S64.ShapeCasts S1x64) :
    val_main_v4 (F := Ideal) x0 x2 x3 = denseRelu (M := 100000) (K := 128) (N := 64) x0 x2 (shapeCast S1x64 x3 h) := by
  funext i
  obtain ⟨p, f, rfl⟩ : ∃ (p : Fin 100000) (f : Fin 64), i = ix2 p f := ⟨i 0, i 1, eq_ix2 i⟩
  rw [val_main_v4_apply, val_main_v3_apply, val_main_v0_apply, val_main_v2_apply, val_main_v1_apply, val_main_call0_v0_apply,
    val_main_call0_cst_apply, denseRelu_apply, row_cast]
  have el : ∀ k : Fin 128, lidx_main_v0 (ix2 p f) k = ix2 p k := fun k => funext fun a => Fin.ext (by
    match a with | ⟨0, _⟩ => rfl | ⟨1, _⟩ => rfl)
  have er : ∀ k : Fin 128, ridx_main_v0 (ix2 p f) k = ix2 k f := fun k => funext fun a => Fin.ext (by
    match a with | ⟨0, _⟩ => rfl | ⟨1, _⟩ => rfl)
  have eb : idx_main_v1 (idx_main_v2 (ix2 p f)) = ix1 f := funext fun a => Fin.ext (by match a with | ⟨0, _⟩ => rfl)
  simp only [el, er, eb]
  rfl

/-- The reference's message scaling is `scaleRows`. -/
theorem scaling (n : FVec Ideal S1700000 .f32) (g : FVec Ideal S1700000x64 .f32)
    (h : S1700000.ShapeCasts S1700000x1) :
    mulf (F := Ideal) (φ := .f32) (broadcastInDim S1700000x64 ![0, 1] bcast_S1700000x1_S1700000x64_0_1
        (broadcastInDim S1700000x1 ![0] bcast_S1700000_S1700000x1_0 n)) g
      = scaleRows (M := 1700000) (N := 64) (shapeCast S1700000x1 n h) g := by
  funext i
  obtain ⟨e, f, rfl⟩ : ∃ (e : Fin 1700000) (f : Fin 64), i = ix2 e f := ⟨i 0, i 1, eq_ix2 i⟩
  rw [scaleRows_apply, col_cast]
  have hb : broadcastInDim S1700000x64 ![0, 1] bcast_S1700000x1_S1700000x64_0_1
      (broadcastInDim S1700000x1 ![0] bcast_S1700000_S1700000x1_0 n) (ix2 e f) = n (ix1 e) := by
    rw [broadcastInDim_apply _ bcast_S1700000x1_S1700000x64_0_1 _ (ix2 e f) (ix2 e ⟨0, Nat.one_pos⟩) (fun a => match a with
      | ⟨0, _⟩ => by show e.val = if (1700000 : Nat) = 1 then 0 else _; rw [if_neg (by decide)]; rfl
      | ⟨1, _⟩ => by show 0 = if (1 : Nat) = 1 then 0 else _; rw [if_pos rfl])]
    exact broadcastInDim_apply _ bcast_S1700000_S1700000x1_0 n (ix2 e ⟨0, Nat.one_pos⟩) (ix1 e) (fun a => match a with
      | ⟨0, _⟩ => by show e.val = if (1700000 : Nat) = 1 then 0 else _; rw [if_neg (by decide)]; rfl)
  exact congrArg₂ (· * ·) hb rfl

/-- The reference's last layer is `dense` of the propagated features. -/
theorem layer2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (h : S64.ShapeCasts S1x64) :
    val_main_v66 (F := Ideal) x0 x1 x2 x3 x4 x5
      = dense (M := 100000) (K := 64) (N := 64) (val_main_v62 (F := Ideal) x0 x1 x2 x3) x4 (shapeCast S1x64 x5 h) := by
  funext i
  obtain ⟨p, f, rfl⟩ : ∃ (p : Fin 100000) (f : Fin 64), i = ix2 p f := ⟨i 0, i 1, eq_ix2 i⟩
  rw [val_main_v66_apply, val_main_v63_apply, val_main_v65_apply, val_main_v64_apply, dense_apply, row_cast]
  have el : ∀ k : Fin 64, lidx_main_v63 (ix2 p f) k = ix2 p k := fun k => funext fun a => Fin.ext (by
    match a with | ⟨0, _⟩ => rfl | ⟨1, _⟩ => rfl)
  have er : ∀ k : Fin 64, ridx_main_v63 (ix2 p f) k = ix2 k f := fun k => funext fun a => Fin.ext (by
    match a with | ⟨0, _⟩ => rfl | ⟨1, _⟩ => rfl)
  have eb : idx_main_v64 (idx_main_v65 (ix2 p f)) = ix1 f := funext fun a => Fin.ext (by match a with | ⟨0, _⟩ => rfl)
  simp only [el, er, eb]
  rfl

end Cert.ReferenceIdeal.Bridge

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Payload.lean ====
/-
  What each of the four kernel bodies stores, read at one entry (p, f) of its [10000, 64] output block, over the extended reals.

  * the first linear layer: the block of x ([10000, 128]) against the whole of W1 ([128, 64]) by the matrix unit from the
    zero accumulator, plus the bias row broadcast down the rows, then max(·, 0):
        max((Σ_k x[p, k] · W1[k, f]) + b[0, f], 0);
    the roundings to bf16 on the way into the matrix unit are the identity on extended reals;
  * the two scaling bodies (one text, launched twice): the [10000, 1] column broadcast along the row, times the block:
        s[p, 0] · h[p, f];
  * the last linear layer: as the first, without the max.

  The matrix unit's entry as a sum over k comes from the dimension numbers' four coordinate facts (which operand coordinate is
  the result's row, which its column, which the contraction's index), proved here of the two printed records.
-/
import proofs.«142817_j88811333746742_2_alg».proof.Proof.Gen.KernelIdeal.Skeleton
import proofs.«142817_j88811333746742_2_alg».proof.Proof.LibDotInner
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The first layer's dimension numbers: [10000, 128] × [128, 64], contracting axis 1 against axis 0. -/
abbrev D0 := dot_S10000x128_S128x64_S10000x64_1_0_0_1_n_n
/-- The last layer's: [10000, 64] × [64, 64]. -/
abbrev D3 := dot_S10000x64_S64x64_S10000x64_1_0_0_1_n_n

/-! ## The coordinate facts of the two records -/

theorem d0_l0 (j : S10000x64.Idx) (q : D0.contr.Idx) : (D0.lhsIdx j q 0).val = (j 0).val := by
  unfold DotDims.lhsIdx
  rw [dif_neg (show ¬(0 : Fin S10000x128.rank) ∈ D0.lhsBatch by decide), dif_pos (show (0 : Fin S10000x128.rank) ∈ D0.lhsNonContracting by decide)]
  rfl
theorem d0_l1 (j : S10000x64.Idx) (q : D0.contr.Idx) : (D0.lhsIdx j q 1).val = (q ⟨0, by decide⟩).val :=
  D0.lhsIdx_val_of_single rfl j q
theorem d0_r0 (j : S10000x64.Idx) (q : D0.contr.Idx) : (D0.rhsIdx j q 0).val = (q ⟨0, by decide⟩).val :=
  D0.rhsIdx_val_of_single rfl j q
theorem d0_r1 (j : S10000x64.Idx) (q : D0.contr.Idx) : (D0.rhsIdx j q 1).val = (j 1).val := by
  unfold DotDims.rhsIdx
  rw [dif_neg (show ¬(1 : Fin S128x64.rank) ∈ D0.rhsBatch by decide), dif_pos (show (1 : Fin S128x64.rank) ∈ D0.rhsNonContracting by decide)]
  rfl

theorem d3_l0 (j : S10000x64.Idx) (q : D3.contr.Idx) : (D3.lhsIdx j q 0).val = (j 0).val := by
  unfold DotDims.lhsIdx
  rw [dif_neg (show ¬(0 : Fin S10000x64.rank) ∈ D3.lhsBatch by decide), dif_pos (show (0 : Fin S10000x64.rank) ∈ D3.lhsNonContracting by decide)]
  rfl
theorem d3_l1 (j : S10000x64.Idx) (q : D3.contr.Idx) : (D3.lhsIdx j q 1).val = (q ⟨0, by decide⟩).val :=
  D3.lhsIdx_val_of_single rfl j q
theorem d3_r0 (j : S10000x64.Idx) (q : D3.contr.Idx) : (D3.rhsIdx j q 0).val = (q ⟨0, by decide⟩).val :=
  D3.rhsIdx_val_of_single rfl j q
theorem d3_r1 (j : S10000x64.Idx) (q : D3.contr.Idx) : (D3.rhsIdx j q 1).val = (j 1).val := by
  unfold DotDims.rhsIdx
  rw [dif_neg (show ¬(1 : Fin S64x64.rank) ∈ D3.rhsBatch by decide), dif_pos (show (1 : Fin S64x64.rank) ∈ D3.rhsNonContracting by decide)]
  rfl

/-! ## The two broadcasts -/

/-- The [1, 64] bias row (through its identity cast) broadcast down 10000 rows reads, at (p, f), the row's entry f. -/
theorem bias_row (x2 : Vec Ideal S1x64 .f32) (p : Fin 10000) (f : Fin 64) :
    broadcastTo S10000x64 (shapeCast S1x64 x2 shapeCasts_S1x64_S1x64) broadcasts_S1x64_S10000x64 (ix2 p f) = x2 (ix2 ⟨0, Nat.one_pos⟩ f) := by
  rw [shapeCast_self]
  exact broadcastTo_apply x2 _ (ix2 p f) (ix2 ⟨0, Nat.one_pos⟩ f) (fun a => match a with
    | ⟨0, _⟩ => by show 0 = if (1 : Nat) = 1 then 0 else _; rw [if_pos rfl]
    | ⟨1, _⟩ => by show f.val = if (64 : Nat) = 1 then 0 else _; rw [if_neg (by decide)]; rfl)

/-- The [10000, 1] column (through its two identity casts) broadcast along 64 columns reads, at (p, f), the column's entry p. -/
theorem scale_col (x0 : Vec Ideal S10000x1 .f32) (p : Fin 10000) (f : Fin 64) :
    broadcastTo S10000x64 (shapeCast S10000x1 (shapeCast S10000x1 x0 shapeCasts_S10000x1_S10000x1) shapeCasts_S10000x1_S10000x1)
      broadcasts_S10000x1_S10000x64 (ix2 p f) = x0 (ix2 p ⟨0, Nat.one_pos⟩) := by
  rw [shapeCast_self, shapeCast_self]
  exact broadcastTo_apply x0 _ (ix2 p f) (ix2 p ⟨0, Nat.one_pos⟩) (fun a => match a with
    | ⟨0, _⟩ => by show p.val = if (10000 : Nat) = 1 then 0 else _; rw [if_neg (by decide)]; rfl
    | ⟨1, _⟩ => by show 0 = if (1 : Nat) = 1 then 0 else _; rw [if_pos rfl])

/-! ## The four stored values at an entry -/

/-- The first layer's body: max((Σ_k x[p, k] · w[k, f]) + b[0, f], 0). -/
theorem linear1_apply (x0 : Vec Ideal S10000x128 .f32) (x1 : Vec Ideal S128x64 .f32) (x2 : Vec Ideal S1x64 .f32) (p : Fin 10000) (f : Fin 64) :
    k0_pay1 (F := Ideal) x0 x1 x2 (ix2 p f)
      = max ((∑ k : Fin 128, x0 (ix2 p k) * x1 (ix2 k f)) + x2 (ix2 ⟨0, Nat.one_pos⟩ f)) (Ideal.ofBits .f32 0x00000000#32) := by
  unfold k0_pay1
  have hmm := DotInner.matmul_zero_apply (M := 10000) (N := 64) (K := 128) D0 rfl rfl d0_l0 d0_l1 d0_r0 d0_r1 none
    (truncf .bf16 x0 bitsLt_bf16_f32) (truncf .bf16 x1 bitsLt_bf16_f32) p f
  exact congrArg₂ max (congrArg₂ (· + ·) hmm (bias_row x2 p f)) rfl

/-- The first scaling body: s[p, 0] · h[p, f]. -/
theorem scale1_apply (x0 : Vec Ideal S10000x1 .f32) (x1 : Vec Ideal S10000x64 .f32) (p : Fin 10000) (f : Fin 64) :
    k1_pay1 (F := Ideal) x0 x1 (ix2 p f) = x0 (ix2 p ⟨0, Nat.one_pos⟩) * x1 (ix2 p f) := by
  unfold k1_pay1
  rw [shapeCast_self x1]
  exact congrArg₂ (· * ·) (scale_col x0 p f) rfl

/-- The second scaling body: the same text. -/
theorem scale2_apply (x0 : Vec Ideal S10000x1 .f32) (x1 : Vec Ideal S10000x64 .f32) (p : Fin 10000) (f : Fin 64) :
    k2_pay1 (F := Ideal) x0 x1 (ix2 p f) = x0 (ix2 p ⟨0, Nat.one_pos⟩) * x1 (ix2 p f) := by
  unfold k2_pay1
  rw [shapeCast_self x1]
  exact congrArg₂ (· * ·) (scale_col x0 p f) rfl

/-- The last layer's body: (Σ_k h[p, k] · w[k, f]) + b[0, f]. -/
theorem linear2_apply (x0 : Vec Ideal S10000x64 .f32) (x1 : Vec Ideal S64x64 .f32) (x2 : Vec Ideal S1x64 .f32) (p : Fin 10000) (f : Fin 64) :
    k3_pay1 (F := Ideal) x0 x1 x2 (ix2 p f)
      = (∑ k : Fin 64, x0 (ix2 p k) * x1 (ix2 k f)) + x2 (ix2 ⟨0, Nat.one_pos⟩ f) := by
  unfold k3_pay1
  rw [shapeCast_self x0]
  have hmm := DotInner.matmul_zero_apply (M := 10000) (N := 64) (K := 64) D3 rfl rfl d3_l0 d3_l1 d3_r0 d3_r1 none
    (truncf .bf16 x0 bitsLt_bf16_f32) (truncf .bf16 x1 bitsLt_bf16_f32) p f
  exact congrArg₂ (· + ·) hmm (bias_row x2 p f)

end Cert.KernelIdeal.Payload

end
-- ==== Proof.Region0.lean ====
/-
  The first launch (the linear layer with max(·, 0)), as one array function of what it finds in memory.

  The launch runs over 10 grid points; point t stages rows 10000·t … 10000·t + 9999 of x, the whole of W1 and the whole bias
  row, and writes back rows 10000·t … of the result. What a point writes back is the body's stored value of its input
  blocks; read at an entry, that is `denseRelu` of the three arrays at the corresponding entry of the whole result —
  row p of the block is row 10000·t + p of the array, and the columns are the array's. The ten blocks tile the result
  array, so after the launch the array IS `denseRelu x W1 b`, whatever the contents `V` the launch was entered with.
-/
import proofs.«142817_j88811333746742_2_alg».proof.Proof.Gen.KernelIdeal.Frame
import proofs.«142817_j88811333746742_2_alg».proof.Proof.Payload
import proofs.«142817_j88811333746742_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the x and result windows move together down the rows, block column 0; the weight and bias
    windows stay at block (0, 0). -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block row of the result is some point's. -/
theorem idx_onto : ∀ q : Fin 10, ∃ t : Fin cfg0.N, win0_3.index t = ![q.val, 0] :=
  (by decide +kernel : ∀ q : Fin 10, ∃ t : Fin grid0.N, win0_3.index t = ![q.val, 0])

/-- Row p, column k of the x block at point t is row (block row)·10000 + p, column k of x. -/
theorem xblk_apply (c : Dev nD) (t : Fin cfg0.N) (p : Fin 10000) (k : Fin 128) (r : Fin 100000)
    (hr : r.val = win0_3.index t (0 : Fin 2) * 10000 + p.val) :
    (iblk0 V c 0 t : Vec Ideal S10000x128 .f32) (ix2 p k) = (V c main_arg0 : S100000x128.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight block at every point is the whole of W1. -/
theorem wblk_apply (c : Dev nD) (t : Fin cfg0.N) (k : Fin 128) (f : Fin 64) :
    (iblk0 V c 1 t : Vec Ideal S128x64 .f32) (ix2 k f) = (V c main_arg2 : S128x64.Idx → EReal) (ix2 k f) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 64 + 1 * f.val = f.val; rw [e3]; omega

/-- The bias block at every point is the whole bias row. -/
theorem bblk_apply (c : Dev nD) (t : Fin cfg0.N) (f : Fin 64) :
    (iblk0 V c 2 t : Vec Ideal S1x64 .f32) (ix2 ⟨0, Nat.one_pos⟩ f) = (V c main_v33 : S1x64.Idx → EReal) (ix2 ⟨0, Nat.one_pos⟩ f) := by
  obtain ⟨-, -, -, -, e4, e5, -⟩ := idx_facts t
  unfold iblk0
  rw [View.read_apply]
  show V c main_v33 _ = V c main_v33 _
  refine congrArg (V c main_v33) (funext fun a => Fin.ext ?_)
  match a with
  | ⟨0, _⟩ => show win0_2.index t (0 : Fin 2) * 1 + 1 * 0 = 0; rw [e4]
  | ⟨1, _⟩ => show win0_2.index t (1 : Fin 2) * 64 + 1 * f.val = f.val; rw [e5]; omega

/-- WHAT POINT t WRITES BACK is block t of `denseRelu` of the three arrays as the launch finds them. -/
theorem flushed_eq (c : Dev nD) (t : Fin cfg0.N) :
    (dat0 V c).flushed 3 t
      = ((cfg0.win 3).blk t).view.read (Elt Ideal) (denseRelu (M := 100000) (K := 128) (N := 64) (V c main_arg0) (V c main_arg2) (V c main_v33)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨-, -, -, -, -, -, e6, e7⟩ := idx_facts t
  funext j
  obtain ⟨p, f, rfl⟩ : ∃ (p : Fin 10000) (f : Fin 64), j = ix2 p f := ⟨j 0, j 1, eq_ix2 j⟩
  have hrlt : win0_3.index t (0 : Fin 2) * 10000 + p.val < 100000 := by have := p.isLt; omega
  have hi : ((cfg0.win 3).blk t).view.emb (ix2 p f) = (ix2 (⟨win0_3.index t (0 : Fin 2) * 10000 + p.val, hrlt⟩ : Fin 100000) f : S100000x64.Idx) := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 64 + 1 * f.val = f.val; rw [e6]; omega
  show k0_pay1 (iblk0 V c 0 t) (iblk0 V c 1 t) (iblk0 V c 2 t) (ix2 p f) = denseRelu _ _ _ (((cfg0.win 3).blk t).view.emb (ix2 p f))
  rw [hi, denseRelu_apply]
  refine (Payload.linear1_apply (iblk0 V c 0 t) (iblk0 V c 1 t) (iblk0 V c 2 t) p f).trans ?_
  refine congrArg₂ max (congrArg₂ (· + ·) (Finset.sum_congr rfl fun k _ => ?_) (bblk_apply V c t f)) rfl
  exact congrArg₂ (· * ·) (xblk_apply V c t p k _ rfl) (wblk_apply V c t k f)

/-- An entry of the result array is in point t's block iff its row is among the block's 10000 rows. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v34).slice (win0_3.rect t)).set ↔ _
  rw [View.set_slice_whole, Rect.mem_set_unit]
  exact Iff.rfl

/-- Every entry of the result array is in some point's block: the point whose block row is row / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the launch is `denseRelu` of the three arrays as the launch finds them. -/
theorem result (c : Dev nD) :
    (dat0 V c).arrAt 3 cfg0.N = denseRelu (M := 100000) (K := 128) (N := 64) (V c main_arg0) (V c main_arg2) (V c main_v33) :=
  (dat0 V c).arrAt_eq_of_cover 3 _ (fun t _ => flushed_eq V c t) cover

end Cert.KernelIdeal.Region0

end
-- ==== Proof.Region1.lean ====
/-
  The first scaling launch, as one array function of what it finds in memory.

  The launch runs over 170 grid points; point t stages rows 10000·t … 10000·t + 9999 of the [1700000, 1] column of edge weights
  and of the [1700000, 64] array of gathered rows, and writes back the same rows of the result. What a point writes back,
  read at an entry, is the column's entry of that row times the gathered entry; row p of a block is row 10000·t + p of the
  arrays. The 170 blocks tile the result array, so after the launch the array IS `scaleRows` of the two arrays, whatever
  the contents `V` the launch was entered with.
-/
import proofs.«142817_j88811333746742_2_alg».proof.Proof.Gen.KernelIdeal.Frame
import proofs.«142817_j88811333746742_2_alg».proof.Proof.Payload
import proofs.«142817_j88811333746742_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows sit at block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p of the column block at point t is row 10000·t + p of the column. -/
theorem sblk_apply (c : Dev nD) (t : Fin cfg1.N) (p : Fin 10000) (r : Fin 1700000) (hr : r.val = t.val * 10000 + p.val) :
    (iblk1 V c 0 t : Vec Ideal S10000x1 .f32) (ix2 p ⟨0, Nat.one_pos⟩) = (V c main_v32 : S1700000x1.Idx → EReal) (ix2 r ⟨0, Nat.one_pos⟩) := by
  obtain ⟨e0, e1, -⟩ := idx_facts t
  unfold iblk1
  rw [View.read_apply]
  show V c main_v32 _ = V c main_v32 _
  refine congrArg (V c main_v32) (funext fun a => Fin.ext ?_)
  match a with
  | ⟨0, _⟩ => show win1_0.index t (0 : Fin 2) * 10000 + 1 * p.val = r.val; rw [e0, hr]; omega
  | ⟨1, _⟩ => show win1_0.index t (1 : Fin 2) * 1 + 1 * 0 = 0; rw [e1]

/-- Row p, column f of the gathered block at point t is row 10000·t + p, column f of the gathered array. -/
theorem hblk_apply (c : Dev nD) (t : Fin cfg1.N) (p : Fin 10000) (f : Fin 64) (r : Fin 1700000) (hr : r.val = t.val * 10000 + p.val) :
    (iblk1 V c 1 t : Vec Ideal S10000x64 .f32) (ix2 p f) = (V c main_v41 : S1700000x64.Idx → EReal) (ix2 r f) := by
  obtain ⟨-, -, e2, e3, -⟩ := idx_facts t
  unfold iblk1
  rw [View.read_apply]
  show V c main_v41 _ = V c main_v41 _
  refine congrArg (V c main_v41) (funext fun a => Fin.ext ?_)
  match a with
  | ⟨0, _⟩ => show win1_1.index t (0 : Fin 2) * 10000 + 1 * p.val = r.val; rw [e2, hr]; omega
  | ⟨1, _⟩ => show win1_1.index t (1 : Fin 2) * 64 + 1 * f.val = f.val; rw [e3]; omega

/-- WHAT POINT t WRITES BACK is block t of `scaleRows` of the two arrays as the launch finds them. -/
theorem flushed_eq (c : Dev nD) (t : Fin cfg1.N) :
    (dat1 V c).flushed 2 t
      = ((cfg1.win 2).blk t).view.read (Elt Ideal) (scaleRows (M := 1700000) (N := 64) (V c main_v32) (V c main_v41)) := by
  show (cfg1.win 2).cut (grid1.coords t) ((dat1 V c).after 2 t) = _
  rw [after1_2]
  unfold out1_2
  rw [View.canon_unit_zero hz]
  simp only [View.ld_unit_zero (S := S10000x1) hz, View.ld_unit_zero (S := S10000x64) hz]
  obtain ⟨-, -, -, -, e4, e5⟩ := idx_facts t
  have hN : cfg1.N = 170 := N_1
  have ht : t.val < 170 := hN ▸ t.isLt
  funext j
  obtain ⟨p, f, rfl⟩ : ∃ (p : Fin 10000) (f : Fin 64), j = ix2 p f := ⟨j 0, j 1, eq_ix2 j⟩
  have hrlt : t.val * 10000 + p.val < 1700000 := by have := p.isLt; omega
  have hi : ((cfg1.win 2).blk t).view.emb (ix2 p f) = (ix2 (⟨t.val * 10000 + p.val, hrlt⟩ : Fin 1700000) f : S1700000x64.Idx) := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * f.val = f.val; rw [e5]; omega
  show k1_pay1 (iblk1 V c 0 t) (iblk1 V c 1 t) (ix2 p f) = scaleRows _ _ (((cfg1.win 2).blk t).view.emb (ix2 p f))
  rw [hi, scaleRows_apply]
  refine (Payload.scale1_apply (iblk1 V c 0 t) (iblk1 V c 1 t) p f).trans ?_
  exact congrArg₂ (· * ·) (sblk_apply V c t p _ rfl) (hblk_apply V c t p f _ rfl)

/-- An entry of the result array is in point t's block iff its row is among the block's 10000 rows. -/
theorem mem_blk (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Every entry of the result array is in some point's block: point row / 10000. -/
theorem cover (i : S1700000x64.Idx) : ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 170 := N_1
  let t : Fin cfg1.N := ⟨(i 0).val / 10000, by rw [hN]; omega⟩
  obtain ⟨-, -, -, -, e4, e5⟩ := idx_facts t
  have q0 : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE RESULT ARRAY after the launch is `scaleRows` of the two arrays as the launch finds them. -/
theorem result (c : Dev nD) :
    (dat1 V c).arrAt 2 cfg1.N = scaleRows (M := 1700000) (N := 64) (V c main_v32) (V c main_v41) :=
  (dat1 V c).arrAt_eq_of_cover 2 _ (fun t _ => flushed_eq V c t) cover

end Cert.KernelIdeal.Region1

end
-- ==== Proof.Region2.lean ====
/-
  The second scaling launch, as one array function of what it finds in memory.

  The launch runs over 170 grid points; point t stages rows 10000·t … 10000·t + 9999 of the [1700000, 1] column of edge weights
  and of the [1700000, 64] array of gathered rows, and writes back the same rows of the result. What a point writes back,
  read at an entry, is the column's entry of that row times the gathered entry; row p of a block is row 10000·t + p of the
  arrays. The 170 blocks tile the result array, so after the launch the array IS `scaleRows` of the two arrays, whatever
  the contents `V` the launch was entered with.
-/
import proofs.«142817_j88811333746742_2_alg».proof.Proof.Gen.KernelIdeal.Frame
import proofs.«142817_j88811333746742_2_alg».proof.Proof.Payload
import proofs.«142817_j88811333746742_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three windows sit at block row t, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of the column block at point t is row 10000·t + p of the column. -/
theorem sblk_apply (c : Dev nD) (t : Fin cfg2.N) (p : Fin 10000) (r : Fin 1700000) (hr : r.val = t.val * 10000 + p.val) :
    (iblk2 V c 0 t : Vec Ideal S10000x1 .f32) (ix2 p ⟨0, Nat.one_pos⟩) = (V c main_v32 : S1700000x1.Idx → EReal) (ix2 r ⟨0, Nat.one_pos⟩) := by
  obtain ⟨e0, e1, -⟩ := idx_facts t
  unfold iblk2
  rw [View.read_apply]
  show V c main_v32 _ = V c main_v32 _
  refine congrArg (V c main_v32) (funext fun a => Fin.ext ?_)
  match a with
  | ⟨0, _⟩ => show win2_0.index t (0 : Fin 2) * 10000 + 1 * p.val = r.val; rw [e0, hr]; omega
  | ⟨1, _⟩ => show win2_0.index t (1 : Fin 2) * 1 + 1 * 0 = 0; rw [e1]

/-- Row p, column f of the gathered block at point t is row 10000·t + p, column f of the gathered array. -/
theorem hblk_apply (c : Dev nD) (t : Fin cfg2.N) (p : Fin 10000) (f : Fin 64) (r : Fin 1700000) (hr : r.val = t.val * 10000 + p.val) :
    (iblk2 V c 1 t : Vec Ideal S10000x64 .f32) (ix2 p f) = (V c main_v52 : S1700000x64.Idx → EReal) (ix2 r f) := by
  obtain ⟨-, -, e2, e3, -⟩ := idx_facts t
  unfold iblk2
  rw [View.read_apply]
  show V c main_v52 _ = V c main_v52 _
  refine congrArg (V c main_v52) (funext fun a => Fin.ext ?_)
  match a with
  | ⟨0, _⟩ => show win2_1.index t (0 : Fin 2) * 10000 + 1 * p.val = r.val; rw [e2, hr]; omega
  | ⟨1, _⟩ => show win2_1.index t (1 : Fin 2) * 64 + 1 * f.val = f.val; rw [e3]; omega

/-- WHAT POINT t WRITES BACK is block t of `scaleRows` of the two arrays as the launch finds them. -/
theorem flushed_eq (c : Dev nD) (t : Fin cfg2.N) :
    (dat2 V c).flushed 2 t
      = ((cfg2.win 2).blk t).view.read (Elt Ideal) (scaleRows (M := 1700000) (N := 64) (V c main_v32) (V c main_v52)) := by
  show (cfg2.win 2).cut (grid2.coords t) ((dat2 V c).after 2 t) = _
  rw [after2_2]
  unfold out2_2
  rw [View.canon_unit_zero hz]
  simp only [View.ld_unit_zero (S := S10000x1) hz, View.ld_unit_zero (S := S10000x64) hz]
  obtain ⟨-, -, -, -, e4, e5⟩ := idx_facts t
  have hN : cfg2.N = 170 := N_2
  have ht : t.val < 170 := hN ▸ t.isLt
  funext j
  obtain ⟨p, f, rfl⟩ : ∃ (p : Fin 10000) (f : Fin 64), j = ix2 p f := ⟨j 0, j 1, eq_ix2 j⟩
  have hrlt : t.val * 10000 + p.val < 1700000 := by have := p.isLt; omega
  have hi : ((cfg2.win 2).blk t).view.emb (ix2 p f) = (ix2 (⟨t.val * 10000 + p.val, hrlt⟩ : Fin 1700000) f : S1700000x64.Idx) := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 64 + 1 * f.val = f.val; rw [e5]; omega
  show k2_pay1 (iblk2 V c 0 t) (iblk2 V c 1 t) (ix2 p f) = scaleRows _ _ (((cfg2.win 2).blk t).view.emb (ix2 p f))
  rw [hi, scaleRows_apply]
  refine (Payload.scale2_apply (iblk2 V c 0 t) (iblk2 V c 1 t) p f).trans ?_
  exact congrArg₂ (· * ·) (sblk_apply V c t p _ rfl) (hblk_apply V c t p f _ rfl)

/-- An entry of the result array is in point t's block iff its row is among the block's 10000 rows. -/
theorem mem_blk (t : Fin cfg2.N) (i : S1700000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

/-- Every entry of the result array is in some point's block: point row / 10000. -/
theorem cover (i : S1700000x64.Idx) : ∃ t : Fin cfg2.N, (cfg2.win 2).flush t = true ∧ i ∈ ((cfg2.win 2).blk t).view.set := by
  have hi0 : (i 0).val < 1700000 := (i 0).isLt
  have hi1 : (i 1).val < 64 := (i 1).isLt
  have hN : cfg2.N = 170 := N_2
  let t : Fin cfg2.N := ⟨(i 0).val / 10000, by rw [hN]; omega⟩
  obtain ⟨-, -, -, -, e4, e5⟩ := idx_facts t
  have q0 : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE RESULT ARRAY after the launch is `scaleRows` of the two arrays as the launch finds them. -/
theorem result (c : Dev nD) :
    (dat2 V c).arrAt 2 cfg2.N = scaleRows (M := 1700000) (N := 64) (V c main_v32) (V c main_v52) :=
  (dat2 V c).arrAt_eq_of_cover 2 _ (fun t _ => flushed_eq V c t) cover

end Cert.KernelIdeal.Region2

end
-- ==== Proof.Region3.lean ====
/-
  The last launch (the final linear layer), as one array function of what it finds in memory.

  The launch runs over 10 grid points; point t stages rows 10000·t … 10000·t + 9999 of the propagated features ([100000, 64]),
  the whole of W2 and the whole bias row, and writes back the same rows of the result. What a point writes back, read at an
  entry, is `dense` of the three arrays at the corresponding entry of the whole result. The ten blocks tile the result
  array, so after the launch the array IS `dense h W2 b`, whatever the contents `V` the launch was entered with.
-/
import proofs.«142817_j88811333746742_2_alg».proof.Proof.Gen.KernelIdeal.Frame
import proofs.«142817_j88811333746742_2_alg».proof.Proof.Payload
import proofs.«142817_j88811333746742_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature and result windows move together down the rows, block column 0; the weight and bias
    windows stay at block (0, 0). -/
theorem idx_facts : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every block row of the result is some point's. -/
theorem idx_onto : ∀ q : Fin 10, ∃ t : Fin cfg3.N, win3_3.index t = ![q.val, 0] :=
  (by decide +kernel : ∀ q : Fin 10, ∃ t : Fin grid3.N, win3_3.index t = ![q.val, 0])

/-- Row p, column k of the feature block at point t is row (block row)·10000 + p, column k of the feature array. -/
theorem xblk_apply (c : Dev nD) (t : Fin cfg3.N) (p : Fin 10000) (k : Fin 64) (r : Fin 100000)
    (hr : r.val = win3_3.index t (0 : Fin 2) * 10000 + p.val) :
    (iblk3 V c 0 t : Vec Ideal S10000x64 .f32) (ix2 p k) = (V c main_v56 : S100000x64.Idx → EReal) (ix2 r k) := by
  obtain ⟨e0, e1, -⟩ := idx_facts t
  unfold iblk3
  rw [View.read_apply]
  show V c main_v56 _ = V c main_v56 _
  refine congrArg (V c main_v56) (funext fun a => Fin.ext ?_)
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- The weight block at every point is the whole of W2. -/
theorem wblk_apply (c : Dev nD) (t : Fin cfg3.N) (k : Fin 64) (f : Fin 64) :
    (iblk3 V c 1 t : Vec Ideal S64x64 .f32) (ix2 k f) = (V c main_arg4 : S64x64.Idx → EReal) (ix2 k f) := by
  obtain ⟨-, -, e2, e3, -⟩ := idx_facts t
  unfold iblk3
  rw [View.read_apply]
  show V c main_arg4 _ = V c main_arg4 _
  refine congrArg (V c main_arg4) (funext fun a => Fin.ext ?_)
  match a with
  | ⟨0, _⟩ => show win3_1.index t (0 : Fin 2) * 64 + 1 * k.val = k.val; rw [e2]; omega
  | ⟨1, _⟩ => show win3_1.index t (1 : Fin 2) * 64 + 1 * f.val = f.val; rw [e3]; omega

/-- The bias block at every point is the whole bias row. -/
theorem bblk_apply (c : Dev nD) (t : Fin cfg3.N) (f : Fin 64) :
    (iblk3 V c 2 t : Vec Ideal S1x64 .f32) (ix2 ⟨0, Nat.one_pos⟩ f) = (V c main_v57 : S1x64.Idx → EReal) (ix2 ⟨0, Nat.one_pos⟩ f) := by
  obtain ⟨-, -, -, -, e4, e5, -⟩ := idx_facts t
  unfold iblk3
  rw [View.read_apply]
  show V c main_v57 _ = V c main_v57 _
  refine congrArg (V c main_v57) (funext fun a => Fin.ext ?_)
  match a with
  | ⟨0, _⟩ => show win3_2.index t (0 : Fin 2) * 1 + 1 * 0 = 0; rw [e4]
  | ⟨1, _⟩ => show win3_2.index t (1 : Fin 2) * 64 + 1 * f.val = f.val; rw [e5]; omega

/-- WHAT POINT t WRITES BACK is block t of `dense` of the three arrays as the launch finds them. -/
theorem flushed_eq (c : Dev nD) (t : Fin cfg3.N) :
    (dat3 V c).flushed 3 t
      = ((cfg3.win 3).blk t).view.read (Elt Ideal) (dense (M := 100000) (K := 64) (N := 64) (V c main_v56) (V c main_arg4) (V c main_v57)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  obtain ⟨-, -, -, -, -, -, e6, e7⟩ := idx_facts t
  funext j
  obtain ⟨p, f, rfl⟩ : ∃ (p : Fin 10000) (f : Fin 64), j = ix2 p f := ⟨j 0, j 1, eq_ix2 j⟩
  have hrlt : win3_3.index t (0 : Fin 2) * 10000 + p.val < 100000 := by have := p.isLt; omega
  have hi : ((cfg3.win 3).blk t).view.emb (ix2 p f) = (ix2 (⟨win3_3.index t (0 : Fin 2) * 10000 + p.val, hrlt⟩ : Fin 100000) f : S100000x64.Idx) := by
    funext a; apply Fin.ext
    match a with
    | ⟨0, _⟩ => show win3_3.index t (0 : Fin 2) * 10000 + 1 * p.val = win3_3.index t (0 : Fin 2) * 10000 + p.val; omega
    | ⟨1, _⟩ => show win3_3.index t (1 : Fin 2) * 64 + 1 * f.val = f.val; rw [e6]; omega
  show k3_pay1 (iblk3 V c 0 t) (iblk3 V c 1 t) (iblk3 V c 2 t) (ix2 p f) = dense _ _ _ (((cfg3.win 3).blk t).view.emb (ix2 p f))
  rw [hi, dense_apply]
  refine (Payload.linear2_apply (iblk3 V c 0 t) (iblk3 V c 1 t) (iblk3 V c 2 t) p f).trans ?_
  refine congrArg₂ (· + ·) (Finset.sum_congr rfl fun k _ => ?_) (bblk_apply V c t f)
  exact congrArg₂ (· * ·) (xblk_apply V c t p k _ rfl) (wblk_apply V c t k f)

/-- An entry of the result array is in point t's block iff its row is among the block's 10000 rows. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v58).slice (win3_3.rect t)).set ↔ _
  rw [View.set_slice_whole, Rect.mem_set_unit]
  exact Iff.rfl

/-- Every entry of the result array is in some point's block: the point whose block row is row / 10000. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- THE RESULT ARRAY after the launch is `dense` of the three arrays as the launch finds them. -/
theorem result (c : Dev nD) :
    (dat3 V c).arrAt 3 cfg3.N = dense (M := 100000) (K := 64) (N := 64) (V c main_v56) (V c main_arg4) (V c main_v57) :=
  (dat3 V c).arrAt_eq_of_cover 3 _ (fun t _ => flushed_eq V c t) cover

end Cert.KernelIdeal.Region3

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibTransport.lean ====
/-
  A typed reference moves a value between the tensor type it carries and its buffer's own type along the equation between
  the two. Whatever the equation's proof, the moved value is the value: it equals any term of the target type that is
  heterogeneously equal to it — in particular the same term read at the other type when the two types compute to one.
-/
import Idealize.ShloMosaic.Lib.StableHlo

namespace Idealize.ShloMosaic.StableHlo.TRef

variable {sig : RefSig} {Val : EltTy → Type} {T : BufTy}

/-- Contents read through a typed reference are the contents. -/
theorem ofBuf_eq_of_heq (x : TRef sig T) (v : x.ref.ty.Contents Val) (w : T.Contents Val) (h : HEq v w) : x.ofBuf v = w :=
  cast_eq_iff_heq.mpr h

/-- Contents written through a typed reference are the contents. -/
theorem toBuf_eq_of_heq (x : TRef sig T) (w : T.Contents Val) (v : x.ref.ty.Contents Val) (h : HEq w v) : x.toBuf w = v :=
  cast_eq_iff_heq.mpr h

end Idealize.ShloMosaic.StableHlo.TRef
-- ==== Proof.Chain.lean ====
/-
  The kernel program's result buffer, as a function of the six arguments: the value chain.

  The generated frame walks the buffer contents through the program's ten segments, `Gen.W0` (launch) … `Gen.W10` (return): a host
  stretch applies its operations (`StableHlo.after`), a launch replaces its output array by what the launch leaves and keeps every
  other buffer. Here each boundary's contents are read at the few buffers later segments use, as terms of the arguments — and
  named by the reference program's own stages (`val_main_vN`), since the two programs share all their host operations:

    boundary   buffer            holds
    W1         v3, v6            the source / destination node of every edge, self-loops appended
               v12, v15          degree > 0, rsqrt(max(degree, 1))
    W2         v16               the where(...) of the two: deg^(-1/2), or 0 for an isolated node
    W3         v32, v33          the edge weights as an [E, 1] column; b1 as a [1, 64] row
    W4         v34               launch 0:  relu(x @ W1 + b1)
    W5         v41               its rows gathered by source node
    W6         v42               launch 1:  the gathered rows scaled by the edge weights
    W7         v52               scattered-added by destination node, gathered by source node again
    W8         v53               launch 2:  scaled again
    W9         v56, v57          scattered-added again; b2 as a [1, 64] row
    W10        v58               launch 3:  (that) @ W2 + b2

  A host stretch is read by unfolding its fold over the operations, with the boundary before it made an opaque valuation of
  which only the facts already proved are known; a launch's output array by the region's value theorem; a buffer a segment
  does not write keeps its contents. The three places where the kernel's operations differ from the reference's (the two dense
  layers and the row scaling) are the bridge lemmas; everything else is the same term on both sides.
-/
import proofs.«142817_j88811333746742_2_alg».proof.Proof.Gen.KernelIdeal.Frame
import proofs.«142817_j88811333746742_2_alg».proof.Proof.RefRead
import proofs.«142817_j88811333746742_2_alg».proof.Proof.RefBridge
import proofs.«142817_j88811333746742_2_alg».proof.Proof.Region0
import proofs.«142817_j88811333746742_2_alg».proof.Proof.Region1
import proofs.«142817_j88811333746742_2_alg».proof.Proof.Region2
import proofs.«142817_j88811333746742_2_alg».proof.Proof.Region3
import proofs.«142817_j88811333746742_2_alg».proof.Proof.LibTypedRefs
import proofs.«142817_j88811333746742_2_alg».proof.Proof.LibTransport
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen
open Cert.ReferenceIdeal.ReadP

/-- The results still unread after the one-pass simplification — those inside a concatenate's list of pieces, where a
    congruence cannot reach: each operation's result read at its own buffer is its function's value, at another buffer what
    was there. -/
macro "results_in_pieces" : tactic =>
  `(tactic| repeat (first
      | rw [nullary_result] | rw [unary_result] | rw [binary_result] | rw [ternary_result] | rw [reshape_result]
      | (rw [nullary_result_ne]; rotate_left; decide) | (rw [unary_result_ne]; rotate_left; decide)
      | (rw [binary_result_ne]; rotate_left; decide) | (rw [ternary_result_ne]; rotate_left; decide)
      | (rw [reshape_result_ne]; rotate_left; decide)))

variable (m : (ℓ : Loc nD τ sig) → Buf (Elt Ideal) ℓ) (ρ : Dev nD → PrngReg)

/-- The six arguments at core c. -/
abbrev X0 (c : Dev nD) := m ((c.tc : Thread nD τ).loc main_arg0)
abbrev X1 (c : Dev nD) := m ((c.tc : Thread nD τ).loc main_arg1)
abbrev X2 (c : Dev nD) := m ((c.tc : Thread nD τ).loc main_arg2)
abbrev X3 (c : Dev nD) := m ((c.tc : Thread nD τ).loc main_arg3)
abbrev X4 (c : Dev nD) := m ((c.tc : Thread nD τ).loc main_arg4)
abbrev X5 (c : Dev nD) := m ((c.tc : Thread nD τ).loc main_arg5)

/-! ## The host head: the graph normalization -/

set_option maxHeartbeats 4000000 in
/-- After the first stretch: the edge endpoints with self-loops, the two degree vectors, and the arguments untouched. -/
theorem at1 (c : Dev nD) :
    W1 m ρ c (Proc.devRef .tc main_v3) = val_main_v8 (F := Ideal) (X1 m c)
    ∧ W1 m ρ c (Proc.devRef .tc main_v6) = val_main_v11 (F := Ideal) (X1 m c)
    ∧ W1 m ρ c (Proc.devRef .tc main_v12) = val_main_v17 (F := Ideal) (X1 m c)
    ∧ W1 m ρ c (Proc.devRef .tc main_v15) = val_main_v20 (F := Ideal) (X1 m c)
    ∧ W1 m ρ c (Proc.devRef .tc main_cst_3) = val_main_cst_3 (F := Ideal)
    ∧ W1 m ρ c (Proc.devRef .tc main_arg0) = X0 m c
    ∧ W1 m ρ c (Proc.devRef .tc main_arg2) = X2 m c
    ∧ W1 m ρ c (Proc.devRef .tc main_arg3) = X3 m c
    ∧ W1 m ρ c (Proc.devRef .tc main_arg4) = X4 m c
    ∧ W1 m ρ c (Proc.devRef .tc main_arg5) = X5 m c := by
  refine ⟨?_, ?_, ?_, ?_, ?_, ?_, ?_, ?_, ?_, ?_⟩ <;>
    (show StableHlo.after hostOps0 (W0 m ρ c) _ = _
     simp only [hostOps0]
     after_results_simp
     try results_in_pieces
     try rfl)

set_option maxHeartbeats 4000000 in
/-- After the where(...) call: deg^(-1/2) with 0 at isolated nodes. The call's three operations move their values through
    typed references: written then read back through one, a value is itself; a value read through one once (the call's
    arguments) or written once (its result) is the same value at a type that computes to the same type. -/
theorem at2 (c : Dev nD) :
    W2 m ρ c (Proc.devRef .tc main_v16) = val_main_v21 (F := Ideal) (X1 m c)
    ∧ W2 m ρ c (Proc.devRef .tc main_v3) = val_main_v8 (F := Ideal) (X1 m c)
    ∧ W2 m ρ c (Proc.devRef .tc main_v6) = val_main_v11 (F := Ideal) (X1 m c)
    ∧ W2 m ρ c (Proc.devRef .tc main_arg0) = X0 m c
    ∧ W2 m ρ c (Proc.devRef .tc main_arg2) = X2 m c
    ∧ W2 m ρ c (Proc.devRef .tc main_arg3) = X3 m c
    ∧ W2 m ρ c (Proc.devRef .tc main_arg4) = X4 m c
    ∧ W2 m ρ c (Proc.devRef .tc main_arg5) = X5 m c := by
  obtain ⟨h3, h6, h12, h15, hc3, a0, a2, a3, a4, a5⟩ := at1 m ρ c
  have key : ∀ b, W2 m ρ c b = StableHlo.after hostOps0_1 (W1 m ρ c) b := fun _ => rfl
  simp only [key]
  generalize W1 m ρ c = V at h3 h6 h12 h15 hc3 a0 a2 a3 a4 a5 ⊢
  refine ⟨?_, ?_, ?_, ?_, ?_, ?_, ?_, ?_⟩ <;> simp only [hostOps0_1] <;> after_results_simp
  · simp only [TRef.ofBuf_toBuf]
    rw [h12, h15, hc3]
    refine TRef.toBuf_eq_of_heq _ _ _ ?_
    rw [TRef.ofBuf_eq_of_heq (TRef.of (T := ⟨S100000, .i1⟩) main_v12) (val_main_v17 (F := Ideal) (X1 m c)) (val_main_v17 (F := Ideal) (X1 m c)) HEq.rfl,
      TRef.ofBuf_eq_of_heq (TRef.of (T := ⟨S100000, .f32⟩) main_v15) (val_main_v20 (F := Ideal) (X1 m c)) (val_main_v20 (F := Ideal) (X1 m c)) HEq.rfl,
      TRef.ofBuf_eq_of_heq (TRef.of (T := ⟨S_, .f32⟩) main_cst_3) (val_main_cst_3 (F := Ideal)) (val_main_cst_3 (F := Ideal)) HEq.rfl]
    exact HEq.rfl
  · exact h3
  · exact h6
  · exact a0
  · exact a2
  · exact a3
  · exact a4
  · exact a5

set_option maxHeartbeats 4000000 in
/-- At the first launch's entry: the edge weights dinv[src]·dinv[dst] as an [E, 1] column, the first bias as a [1, 64] row. -/
theorem at3 (c : Dev nD) :
    W3 m ρ c (Proc.devRef .tc main_v32) = shapeCast S1700000x1 (val_main_v36 (F := Ideal) (X1 m c)) shapeCasts_S1700000_S1700000x1
    ∧ W3 m ρ c (Proc.devRef .tc main_v33) = shapeCast S1x64 (X3 m c) shapeCasts_S64_S1x64
    ∧ W3 m ρ c (Proc.devRef .tc main_v3) = val_main_v8 (F := Ideal) (X1 m c)
    ∧ W3 m ρ c (Proc.devRef .tc main_v6) = val_main_v11 (F := Ideal) (X1 m c)
    ∧ W3 m ρ c (Proc.devRef .tc main_arg0) = X0 m c
    ∧ W3 m ρ c (Proc.devRef .tc main_arg2) = X2 m c
    ∧ W3 m ρ c (Proc.devRef .tc main_arg4) = X4 m c
    ∧ W3 m ρ c (Proc.devRef .tc main_arg5) = X5 m c := by
  obtain ⟨h16, h3, h6, a0, a2, a3, a4, a5⟩ := at2 m ρ c
  have key : ∀ b, W3 m ρ c b = StableHlo.after hostOps0_2 (W2 m ρ c) b := fun _ => rfl
  simp only [key]
  generalize W2 m ρ c = V at h16 h3 h6 a0 a2 a3 a4 a5 ⊢
  refine ⟨?_, ?_, ?_, ?_, ?_, ?_, ?_, ?_⟩ <;> simp only [hostOps0_2] <;> after_results_simp
  · rw [h16, h3, h6]
    rfl
  · rw [a3]
    rfl
  · exact h3
  · exact h6
  · exact a0
  · exact a2
  · exact a4
  · exact a5

/-! ## The launches and the stretches between them -/

/-- After the first launch: relu(x @ W1 + b1). -/
theorem at4 (c : Dev nD) :
    W4 m ρ c (Proc.devRef .tc main_v34) = val_main_v4 (F := Ideal) (X0 m c) (X2 m c) (X3 m c)
    ∧ W4 m ρ c (Proc.devRef .tc main_v32) = shapeCast S1700000x1 (val_main_v36 (F := Ideal) (X1 m c)) shapeCasts_S1700000_S1700000x1
    ∧ W4 m ρ c (Proc.devRef .tc main_v3) = val_main_v8 (F := Ideal) (X1 m c)
    ∧ W4 m ρ c (Proc.devRef .tc main_v6) = val_main_v11 (F := Ideal) (X1 m c)
    ∧ W4 m ρ c (Proc.devRef .tc main_arg4) = X4 m c
    ∧ W4 m ρ c (Proc.devRef .tc main_arg5) = X5 m c := by
  obtain ⟨h32, h33, h3, h6, a0, a2, a4, a5⟩ := at3 m ρ c
  refine ⟨?_, (W4_of_ne m ρ c main_v32 (by decide)).trans h32, (W4_of_ne m ρ c main_v3 (by decide)).trans h3,
    (W4_of_ne m ρ c main_v6 (by decide)).trans h6, (W4_of_ne m ρ c main_arg4 (by decide)).trans a4,
    (W4_of_ne m ρ c main_arg5 (by decide)).trans a5⟩
  refine (W4_arr m ρ c 3).trans ((Region0.result (V3 m ρ) c).trans ?_)
  show Cert.Spec.denseRelu (W3 m ρ c (Proc.devRef .tc main_arg0)) (W3 m ρ c (Proc.devRef .tc main_arg2)) (W3 m ρ c (Proc.devRef .tc main_v33)) = _
  rw [a0, a2, h33]
  exact (Cert.ReferenceIdeal.Bridge.layer1 (X0 m c) (X2 m c) (X3 m c) _).symm

set_option maxHeartbeats 4000000 in
/-- At the second launch's entry: the first layer's rows gathered by source node. -/
theorem at5 (c : Dev nD) :
    W5 m ρ c (Proc.devRef .tc main_v41) = val_main_v44 (F := Ideal) (X0 m c) (X1 m c) (X2 m c) (X3 m c)
    ∧ W5 m ρ c (Proc.devRef .tc main_v32) = shapeCast S1700000x1 (val_main_v36 (F := Ideal) (X1 m c)) shapeCasts_S1700000_S1700000x1
    ∧ W5 m ρ c (Proc.devRef .tc main_v3) = val_main_v8 (F := Ideal) (X1 m c)
    ∧ W5 m ρ c (Proc.devRef .tc main_v6) = val_main_v11 (F := Ideal) (X1 m c)
    ∧ W5 m ρ c (Proc.devRef .tc main_arg4) = X4 m c
    ∧ W5 m ρ c (Proc.devRef .tc main_arg5) = X5 m c := by
  obtain ⟨h34, h32, h3, h6, a4, a5⟩ := at4 m ρ c
  have key : ∀ b, W5 m ρ c b = StableHlo.after hostOps1 (W4 m ρ c) b := fun _ => rfl
  simp only [key]
  generalize W4 m ρ c = V at h34 h32 h3 h6 a4 a5 ⊢
  refine ⟨?_, ?_, ?_, ?_, ?_, ?_⟩ <;> simp only [hostOps1] <;> after_results_simp
  · rw [h34, h3]
    rfl
  · exact h32
  · exact h3
  · exact h6
  · exact a4
  · exact a5

/-- After the second launch: the gathered rows scaled by the edge weights. The weight column is one of the launch's input
    arrays, which a launch leaves as it found them. -/
theorem at6 (c : Dev nD) :
    W6 m ρ c (Proc.devRef .tc main_v42) = val_main_v46 (F := Ideal) (X0 m c) (X1 m c) (X2 m c) (X3 m c)
    ∧ W6 m ρ c (Proc.devRef .tc main_v32) = shapeCast S1700000x1 (val_main_v36 (F := Ideal) (X1 m c)) shapeCasts_S1700000_S1700000x1
    ∧ W6 m ρ c (Proc.devRef .tc main_v3) = val_main_v8 (F := Ideal) (X1 m c)
    ∧ W6 m ρ c (Proc.devRef .tc main_v6) = val_main_v11 (F := Ideal) (X1 m c)
    ∧ W6 m ρ c (Proc.devRef .tc main_arg4) = X4 m c
    ∧ W6 m ρ c (Proc.devRef .tc main_arg5) = X5 m c := by
  obtain ⟨h41, h32, h3, h6, a4, a5⟩ := at5 m ρ c
  refine ⟨?_, (W6_arr m ρ c 0).trans (((dat1 (V5 m ρ) c).arrAt_in 0 rfl _).trans ((A_eq1 (V5 m ρ) c 0).trans h32)),
    (W6_of_ne m ρ c main_v3 (by decide)).trans h3, (W6_of_ne m ρ c main_v6 (by decide)).trans h6,
    (W6_of_ne m ρ c main_arg4 (by decide)).trans a4, (W6_of_ne m ρ c main_arg5 (by decide)).trans a5⟩
  refine (W6_arr m ρ c 2).trans ((Region1.result (V5 m ρ) c).trans ?_)
  show Cert.Spec.scaleRows (W5 m ρ c (Proc.devRef .tc main_v32)) (W5 m ρ c (Proc.devRef .tc main_v41)) = _
  rw [h32, h41]
  exact (Cert.ReferenceIdeal.Bridge.scaling (val_main_v36 (F := Ideal) (X1 m c)) (val_main_v44 (F := Ideal) (X0 m c) (X1 m c) (X2 m c) (X3 m c)) _).symm

set_option maxHeartbeats 4000000 in
/-- At the third launch's entry: the messages summed into their destination nodes, and those rows gathered by source node. -/
theorem at7 (c : Dev nD) :
    W7 m ρ c (Proc.devRef .tc main_v52) = val_main_v57 (F := Ideal) (X0 m c) (X1 m c) (X2 m c) (X3 m c)
    ∧ W7 m ρ c (Proc.devRef .tc main_v32) = shapeCast S1700000x1 (val_main_v36 (F := Ideal) (X1 m c)) shapeCasts_S1700000_S1700000x1
    ∧ W7 m ρ c (Proc.devRef .tc main_v6) = val_main_v11 (F := Ideal) (X1 m c)
    ∧ W7 m ρ c (Proc.devRef .tc main_arg4) = X4 m c
    ∧ W7 m ρ c (Proc.devRef .tc main_arg5) = X5 m c := by
  obtain ⟨h42, h32, h3, h6, a4, a5⟩ := at6 m ρ c
  have key : ∀ b, W7 m ρ c b = StableHlo.after hostOps2 (W6 m ρ c) b := fun _ => rfl
  simp only [key]
  generalize W6 m ρ c = V at h42 h32 h3 h6 a4 a5 ⊢
  refine ⟨?_, ?_, ?_, ?_, ?_⟩ <;> simp only [hostOps2] <;> after_results_simp
  · rw [h42, h3, h6]
    rfl
  · exact h32
  · exact h6
  · exact a4
  · exact a5

/-- After the third launch: scaled by the edge weights again. -/
theorem at8 (c : Dev nD) :
    W8 m ρ c (Proc.devRef .tc main_v53) = val_main_v59 (F := Ideal) (X0 m c) (X1 m c) (X2 m c) (X3 m c)
    ∧ W8 m ρ c (Proc.devRef .tc main_v6) = val_main_v11 (F := Ideal) (X1 m c)
    ∧ W8 m ρ c (Proc.devRef .tc main_arg4) = X4 m c
    ∧ W8 m ρ c (Proc.devRef .tc main_arg5) = X5 m c := by
  obtain ⟨h52, h32, h6, a4, a5⟩ := at7 m ρ c
  refine ⟨?_, (W8_of_ne m ρ c main_v6 (by decide)).trans h6,
    (W8_of_ne m ρ c main_arg4 (by decide)).trans a4, (W8_of_ne m ρ c main_arg5 (by decide)).trans a5⟩
  refine (W8_arr m ρ c 2).trans ((Region2.result (V7 m ρ) c).trans ?_)
  show Cert.Spec.scaleRows (W7 m ρ c (Proc.devRef .tc main_v32)) (W7 m ρ c (Proc.devRef .tc main_v52)) = _
  rw [h32, h52]
  exact (Cert.ReferenceIdeal.Bridge.scaling (val_main_v36 (F := Ideal) (X1 m c)) (val_main_v57 (F := Ideal) (X0 m c) (X1 m c) (X2 m c) (X3 m c)) _).symm

set_option maxHeartbeats 4000000 in
/-- At the last launch's entry: the second hop summed into its destination nodes; the second bias as a [1, 64] row. -/
theorem at9 (c : Dev nD) :
    W9 m ρ c (Proc.devRef .tc main_v56) = val_main_v62 (F := Ideal) (X0 m c) (X1 m c) (X2 m c) (X3 m c)
    ∧ W9 m ρ c (Proc.devRef .tc main_v57) = shapeCast S1x64 (X5 m c) shapeCasts_S64_S1x64
    ∧ W9 m ρ c (Proc.devRef .tc main_arg4) = X4 m c := by
  obtain ⟨h53, h6, a4, a5⟩ := at8 m ρ c
  have key : ∀ b, W9 m ρ c b = StableHlo.after hostOps3 (W8 m ρ c) b := fun _ => rfl
  simp only [key]
  generalize W8 m ρ c = V at h53 h6 a4 a5 ⊢
  refine ⟨?_, ?_, ?_⟩ <;> simp only [hostOps3] <;> after_results_simp
  · rw [h53, h6]
    rfl
  · rw [a5]
    rfl
  · exact a4

/-- THE RESULT: after the last launch the result buffer holds the reference's own last stage of the six arguments. -/
theorem result (c : Dev nD) :
    W10 m ρ c (Proc.devRef .tc main_v58)
      = val_main_v66 (F := Ideal) (X0 m c) (X1 m c) (X2 m c) (X3 m c) (X4 m c) (X5 m c) := by
  obtain ⟨h56, h57, a4⟩ := at9 m ρ c
  refine (W10_arr m ρ c 3).trans ((Region3.result (V9 m ρ) c).trans ?_)
  show Cert.Spec.dense (W9 m ρ c (Proc.devRef .tc main_v56)) (W9 m ρ c (Proc.devRef .tc main_arg4)) (W9 m ρ c (Proc.devRef .tc main_v57)) = _
  rw [h56, a4, h57]
  exact (Cert.ReferenceIdeal.Bridge.layer2 (X0 m c) (X1 m c) (X2 m c) (X3 m c) (X4 m c) (X5 m c) _).symm

end Cert.KernelIdeal.Chain

end
-- ==== Proof.lean ====
/-
  A two-hop simplified graph convolution, kernel against reference, over the extended reals.

  Both programs compute, from node features x [100000, 128], an edge list ei [2, 1600000] and two dense layers,

      h₀ = relu(x @ W1 + b1)
      hₖ₊₁[v] = Σ over edges e into v (self-loops added) of norm[e] · hₖ[src e],     norm[e] = deg^(-1/2)[src e] · deg^(-1/2)[dst e],  k = 0, 1
      out = h₂ @ W2 + b2.

  The kernel program keeps every indexing step — the degree count, the gathers by source node, the scatter-adds by
  destination node — as the same host operations the reference uses, and moves into four kernel launches the two dense
  layers (blocks of 10000 rows through the matrix unit, the operands rounded to bf16 on the way in: the identity on extended
  reals) and the two row scalings norm[e] · h[src e] (blocks of 10000 edges). So the two programs are the same composition
  of array functions once each launch is read as one: a dense layer entry (p, f) is (Σ_k x[p, k] · w[k, f]) + b[f] on both
  sides — the matrix unit from a zero accumulator against the host's matrix product, the bias a reshaped row against a
  broadcast one —, and a scaling entry is the edge's weight times the gathered entry. No law of the extended reals beyond
  that reading is needed, so finiteness of the inputs is never used.

  The pieces: Spec (the three array functions), Payload (each kernel body's stored value at an entry), Region0 … Region3 (each
  launch's output array as that function of what the launch finds, the blocks tiling the array), KernelRun (the program's
  run with its result buffer named), Chain (the buffer contents walked through the program's ten segments, ending at the
  reference's own last stage of the six arguments), RefRun / RefRead (the reference's run and its stages), RefBridge (the
  reference's dense steps are the same three functions).
-/
import proofs.«142817_j88811333746742_2_alg».proof.Defs
import proofs.«142817_j88811333746742_2_alg».proof.Proof.Gen.Kernel
import proofs.«142817_j88811333746742_2_alg».proof.Proof.Gen.Kernel.Frame
import proofs.«142817_j88811333746742_2_alg».proof.Proof.Gen.KernelIdeal
import proofs.«142817_j88811333746742_2_alg».proof.Proof.Gen.KernelIdeal.Frame
import proofs.«142817_j88811333746742_2_alg».proof.Proof.Gen.ReferenceIdeal
import proofs.«142817_j88811333746742_2_alg».proof.Proof.Gen.Pre_finite_inputs
import proofs.«142817_j88811333746742_2_alg».proof.Proof.RefRun
import proofs.«142817_j88811333746742_2_alg».proof.Proof.RefRead
import proofs.«142817_j88811333746742_2_alg».proof.Proof.KernelRun
import proofs.«142817_j88811333746742_2_alg».proof.Proof.Chain
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories agreeing on the six arguments both idealized programs end with the result buffer at the reference's last
    stage of those arguments: the kernel program by the value chain, the reference by its run. -/
theorem algebraic : Cert.algebraic_KernelIdeal_ReferenceIdeal := by
  intro m ρ m' ρ' _ hagree
  refine ⟨fun c => Cert.ReferenceIdeal.ReadP.val_main_v66 (F := Ideal) (Cert.KernelIdeal.Chain.X0 m c) (Cert.KernelIdeal.Chain.X1 m c)
    (Cert.KernelIdeal.Chain.X2 m c) (Cert.KernelIdeal.Chain.X3 m c) (Cert.KernelIdeal.Chain.X4 m c) (Cert.KernelIdeal.Chain.X5 m c), ?_, ?_⟩
  · exact (θ_run Cert.KernelIdeal.defs _ _).mono
      (fun _ h c => ⟨(h c).1.trans (Cert.KernelIdeal.Chain.result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v66_eq]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
